-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S10000x128 : Shape := ⟨2, ![10000, 128]⟩
abbrev S10000x64 : Shape := ⟨2, ![10000, 64]⟩
abbrev S850000x64 : Shape := ⟨2, ![850000, 64]⟩
abbrev S1x64 : Shape := ⟨2, ![1, 64]⟩
abbrev S50000x40 : Shape := ⟨2, ![50000, 40]⟩
abbrev S10000x40 : Shape := ⟨2, ![10000, 40]⟩
abbrev S850000x40 : Shape := ⟨2, ![850000, 40]⟩
abbrev S1x40 : Shape := ⟨2, ![1, 40]⟩

abbrev nBuf : Space → Nat
  | .hbm => 105
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x1, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x40, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x40, .f32⟩
  | .hbm, ⟨96, _⟩ => ⟨S850000x1, .f32⟩
  | .hbm, ⟨97, _⟩ => ⟨S850000x40, .f32⟩
  | .hbm, ⟨98, _⟩ => ⟨S850000x40, .f32⟩
  | .hbm, ⟨99, _⟩ => ⟨S_, .f32⟩
  | .hbm, ⟨100, _⟩ => ⟨S50000x40, .f32⟩
  | .hbm, ⟨101, _⟩ => ⟨S850000x1, .i32⟩
  | .hbm, ⟨102, _⟩ => ⟨S50000x40, .f32⟩
  | .hbm, ⟨103, _⟩ => ⟨S1x40, .f32⟩
  | .hbm, ⟨104, _⟩ => ⟨S50000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x40, .f32⟩
  | .local _ .vmem, ⟨23, _⟩ => ⟨S10000x40, .f32⟩
  | .local _ .vmem, ⟨24, _⟩ => ⟨S10000x40, .f32⟩
  | .local _ .vmem, ⟨25, _⟩ => ⟨S10000x40, .f32⟩
  | .local _ .vmem, ⟨26, _⟩ => ⟨S10000x40, .f32⟩
  | .local _ .vmem, ⟨27, _⟩ => ⟨S1x40, .f32⟩
  | .local _ .vmem, ⟨28, _⟩ => ⟨S10000x40, .f32⟩
  | .local _ .vmem, ⟨29, _⟩ => ⟨S10000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x40.size a ≤ S50000x40.size a
  hwx4_2 : ∀ i : grid4.Coords, EltTy.bits .f32 = 32 ∨ (Rect.block (s := S50000x40) S10000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x40.size a ≤ S50000x40.size a
  hwx5_0 : ∀ i : grid5.Coords, EltTy.bits .f32 = 32 ∨ (Rect.block (s := S50000x40) S10000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x40.size a ≤ S50000x40.size a
  hwx5_2 : ∀ i : grid5.Coords, EltTy.bits .f32 = 32 ∨ (Rect.block (s := S50000x40) S10000x40.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S_, .f32⟩
  | .hbm, ⟨92, _⟩ => ⟨S50000x64, .f32⟩
  | .hbm, ⟨93, _⟩ => ⟨S50000x64, .f32⟩
  | .hbm, ⟨94, _⟩ => ⟨S50000x40, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x40, .f32⟩
  | .hbm, ⟨104, _⟩ => ⟨S850000x1, .f32⟩
  | .hbm, ⟨105, _⟩ => ⟨S850000x40, .f32⟩
  | .hbm, ⟨106, _⟩ => ⟨S850000x40, .f32⟩
  | .hbm, ⟨107, _⟩ => ⟨S_, .f32⟩
  | .hbm, ⟨108, _⟩ => ⟨S50000x40, .f32⟩
  | .hbm, ⟨109, _⟩ => ⟨S850000x1, .i32⟩
  | .hbm, ⟨110, _⟩ => ⟨S50000x40, .f32⟩
  | .hbm, ⟨111, _⟩ => ⟨S1x40, .f32⟩
  | .hbm, ⟨112, _⟩ => ⟨S50000x40, .f32⟩
  | .hbm, ⟨113, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x40_S50000x40_1_0_0_1_n_n_wf : DotDims.WF S50000x64 S64x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel's run with its result array NAMED.

  @main of the kernel's program is twelve segments: stretches of host operations (the edge lists with their self-loops,
  the symmetric normalisation, a gather / scale / scatter-add per layer) and six kernel regions (per layer a projection
  `h @ W` and a bias step). The buffer contents at the segment boundaries are a fold from the launch memory, `W0 … W12`
  of the imported frame module. The frame proof reads only the argument arrays off the last boundary `W12`; here the
  result buffer is read off it as well, so that the run's post names what the result array holds: `W12` at the result.
  What `W12` holds there, as a function of the arguments, is the business of the modules that import this one.
-/
import proofs.«161392_j49855980372167_1_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result array at the last
    boundary's contents `W12` and the argument arrays as launched: the segments' launch, the last thread state read
    against the final state, the result buffer being one of the unscoped buffers that state holds. -/
theorem run_main : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Layers

end
-- ==== Proof.KernelKept.lean ====
/-
  Buffers that ride through the kernel's @main unchanged.

  The boundary contents `W0 … W12` of the imported frame module are a fold through @main: a stretch of host operations
  rewrites the buffers its operations write, a region rewrites its windows' arrays, and everything else is carried over.
  The argument arrays are written by nothing, and the edge lists with self-loops (source, destination) and the edge
  weights are computed once, before the first region, and only read afterwards. Here those facts are stated at the
  boundaries where a later stretch or region reads the buffer.
-/
import proofs.«161392_j49855980372167_1_alg».proof.Proof.Gen.KernelIdeal.Frame
import Idealize.ShloMosaic.Lib.StableHlo.Run

set_option maxRecDepth 16384

noncomputable section

namespace Cert.KernelIdeal.Layers.Kept

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- No host operation before the first region writes the node features. -/
theorem features_entry0 : W3 m ρ c (Proc.devRef .tc main_arg0) = m ((c.tc : Thread nD τ).loc main_arg0) :=
  calc W3 m ρ c (Proc.devRef .tc main_arg0)
    _ = W2 m ρ c (Proc.devRef .tc main_arg0) := by
          show StableHlo.after hostOps0_2 (W2 m ρ c) (Proc.devRef .tc main_arg0) = _
          after_results_simp
    _ = W1 m ρ c (Proc.devRef .tc main_arg0) := by
          show StableHlo.after hostOps0_1 (W1 m ρ c) (Proc.devRef .tc main_arg0) = _
          after_results_simp
    _ = W0 m ρ c (Proc.devRef .tc main_arg0) := by
          show StableHlo.after hostOps0 (W0 m ρ c) (Proc.devRef .tc main_arg0) = _
          after_results_simp
    _ = m ((c.tc : Thread nD τ).loc main_arg0) := rfl

/-- No host operation before the first region writes the first weight. -/
theorem weight1_entry0 : W3 m ρ c (Proc.devRef .tc main_arg2) = m ((c.tc : Thread nD τ).loc main_arg2) :=
  calc W3 m ρ c (Proc.devRef .tc main_arg2)
    _ = W2 m ρ c (Proc.devRef .tc main_arg2) := by
          show StableHlo.after hostOps0_2 (W2 m ρ c) (Proc.devRef .tc main_arg2) = _
          after_results_simp
    _ = W1 m ρ c (Proc.devRef .tc main_arg2) := by
          show StableHlo.after hostOps0_1 (W1 m ρ c) (Proc.devRef .tc main_arg2) = _
          after_results_simp
    _ = W0 m ρ c (Proc.devRef .tc main_arg2) := by
          show StableHlo.after hostOps0 (W0 m ρ c) (Proc.devRef .tc main_arg2) = _
          after_results_simp
    _ = m ((c.tc : Thread nD τ).loc main_arg2) := rfl

/-- The first bias at the first region's exit is as launched. -/
theorem bias1_exit0 : W4 m ρ c (Proc.devRef .tc main_arg3) = m ((c.tc : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by
          show StableHlo.after hostOps0_2 (W2 m ρ c) (Proc.devRef .tc main_arg3) = _
          after_results_simp
    _ = W1 m ρ c (Proc.devRef .tc main_arg3) := by
          show StableHlo.after hostOps0_1 (W1 m ρ c) (Proc.devRef .tc main_arg3) = _
          after_results_simp
    _ = W0 m ρ c (Proc.devRef .tc main_arg3) := by
          show StableHlo.after hostOps0 (W0 m ρ c) (Proc.devRef .tc main_arg3) = _
          after_results_simp
    _ = m ((c.tc : Thread nD τ).loc main_arg3) := rfl

/-- The second weight at the third region's entry is as launched. -/
theorem weight2_entry2 : W6 m ρ c (Proc.devRef .tc main_arg4) = m ((c.tc : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by
          show StableHlo.after hostOps1 (W4 m ρ c) (Proc.devRef .tc main_arg4) = _
          after_results_simp
    _ = W3 m ρ c (Proc.devRef .tc main_arg4) := W4_of_ne m ρ c main_arg4 (by decide)
    _ = W2 m ρ c (Proc.devRef .tc main_arg4) := by
          show StableHlo.after hostOps0_2 (W2 m ρ c) (Proc.devRef .tc main_arg4) = _
          after_results_simp
    _ = W1 m ρ c (Proc.devRef .tc main_arg4) := by
          show StableHlo.after hostOps0_1 (W1 m ρ c) (Proc.devRef .tc main_arg4) = _
          after_results_simp
    _ = W0 m ρ c (Proc.devRef .tc main_arg4) := by
          show StableHlo.after hostOps0 (W0 m ρ c) (Proc.devRef .tc main_arg4) = _
          after_results_simp
    _ = m ((c.tc : Thread nD τ).loc main_arg4) := rfl

/-- The second bias at the third region's exit is as launched. -/
theorem bias2_exit2 : W7 m ρ c (Proc.devRef .tc main_arg5) = m ((c.tc : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by
          show StableHlo.after hostOps1 (W4 m ρ c) (Proc.devRef .tc main_arg5) = _
          after_results_simp
    _ = W3 m ρ c (Proc.devRef .tc main_arg5) := W4_of_ne m ρ c main_arg5 (by decide)
    _ = W2 m ρ c (Proc.devRef .tc main_arg5) := by
          show StableHlo.after hostOps0_2 (W2 m ρ c) (Proc.devRef .tc main_arg5) = _
          after_results_simp
    _ = W1 m ρ c (Proc.devRef .tc main_arg5) := by
          show StableHlo.after hostOps0_1 (W1 m ρ c) (Proc.devRef .tc main_arg5) = _
          after_results_simp
    _ = W0 m ρ c (Proc.devRef .tc main_arg5) := by
          show StableHlo.after hostOps0 (W0 m ρ c) (Proc.devRef .tc main_arg5) = _
          after_results_simp
    _ = m ((c.tc : Thread nD τ).loc main_arg5) := rfl

/-- The third weight at the fifth region's entry is as launched. -/
theorem weight3_entry4 : W9 m ρ c (Proc.devRef .tc main_arg6) = m ((c.tc : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := by
          show StableHlo.after hostOps3 (W7 m ρ c) (Proc.devRef .tc main_arg6) = _
          after_results_simp
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by
          show StableHlo.after hostOps1 (W4 m ρ c) (Proc.devRef .tc main_arg6) = _
          after_results_simp
    _ = W3 m ρ c (Proc.devRef .tc main_arg6) := W4_of_ne m ρ c main_arg6 (by decide)
    _ = W2 m ρ c (Proc.devRef .tc main_arg6) := by
          show StableHlo.after hostOps0_2 (W2 m ρ c) (Proc.devRef .tc main_arg6) = _
          after_results_simp
    _ = W1 m ρ c (Proc.devRef .tc main_arg6) := by
          show StableHlo.after hostOps0_1 (W1 m ρ c) (Proc.devRef .tc main_arg6) = _
          after_results_simp
    _ = W0 m ρ c (Proc.devRef .tc main_arg6) := by
          show StableHlo.after hostOps0 (W0 m ρ c) (Proc.devRef .tc main_arg6) = _
          after_results_simp
    _ = m ((c.tc : Thread nD τ).loc main_arg6) := rfl

/-- The third bias at the fifth region's exit is as launched. -/
theorem bias3_exit4 : W10 m ρ c (Proc.devRef .tc main_arg7) = m ((c.tc : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by
          show StableHlo.after hostOps3 (W7 m ρ c) (Proc.devRef .tc main_arg7) = _
          after_results_simp
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by
          show StableHlo.after hostOps1 (W4 m ρ c) (Proc.devRef .tc main_arg7) = _
          after_results_simp
    _ = W3 m ρ c (Proc.devRef .tc main_arg7) := W4_of_ne m ρ c main_arg7 (by decide)
    _ = W2 m ρ c (Proc.devRef .tc main_arg7) := by
          show StableHlo.after hostOps0_2 (W2 m ρ c) (Proc.devRef .tc main_arg7) = _
          after_results_simp
    _ = W1 m ρ c (Proc.devRef .tc main_arg7) := by
          show StableHlo.after hostOps0_1 (W1 m ρ c) (Proc.devRef .tc main_arg7) = _
          after_results_simp
    _ = W0 m ρ c (Proc.devRef .tc main_arg7) := by
          show StableHlo.after hostOps0 (W0 m ρ c) (Proc.devRef .tc main_arg7) = _
          after_results_simp
    _ = m ((c.tc : Thread nD τ).loc main_arg7) := rfl

/-- The source list at the first region's exit are what the host operations before it computed. -/
theorem src_exit0 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- The same at the third region's exit: nothing in between writes them. -/
theorem src_exit2 : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by
          show StableHlo.after hostOps1 (W4 m ρ c) (Proc.devRef .tc main_v3) = _
          after_results_simp
    _ = W3 m ρ c (Proc.devRef .tc main_v3) := W4_of_ne m ρ c main_v3 (by decide)

/-- The same at the fifth region's exit. -/
theorem src_exit4 : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by
          show StableHlo.after hostOps3 (W7 m ρ c) (Proc.devRef .tc main_v3) = _
          after_results_simp
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by
          show StableHlo.after hostOps1 (W4 m ρ c) (Proc.devRef .tc main_v3) = _
          after_results_simp
    _ = W3 m ρ c (Proc.devRef .tc main_v3) := W4_of_ne m ρ c main_v3 (by decide)

/-- The destination list at the first region's exit are what the host operations before it computed. -/
theorem dst_exit0 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- The same at the third region's exit: nothing in between writes them. -/
theorem dst_exit2 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by
          show StableHlo.after hostOps1 (W4 m ρ c) (Proc.devRef .tc main_v6) = _
          after_results_simp
    _ = W3 m ρ c (Proc.devRef .tc main_v6) := W4_of_ne m ρ c main_v6 (by decide)

/-- The same at the fifth region's exit. -/
theorem dst_exit4 : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by
          show StableHlo.after hostOps3 (W7 m ρ c) (Proc.devRef .tc main_v6) = _
          after_results_simp
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by
          show StableHlo.after hostOps1 (W4 m ρ c) (Proc.devRef .tc main_v6) = _
          after_results_simp
    _ = W3 m ρ c (Proc.devRef .tc main_v6) := W4_of_ne m ρ c main_v6 (by decide)

/-- The edge weights at the first region's exit are what the host operations before it computed. -/
theorem norm_exit0 : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- The same at the third region's exit: nothing in between writes them. -/
theorem norm_exit2 : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by
          show StableHlo.after hostOps1 (W4 m ρ c) (Proc.devRef .tc main_v29) = _
          after_results_simp
    _ = W3 m ρ c (Proc.devRef .tc main_v29) := W4_of_ne m ρ c main_v29 (by decide)

/-- The same at the fifth region's exit. -/
theorem norm_exit4 : W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := by
          show StableHlo.after hostOps3 (W7 m ρ c) (Proc.devRef .tc main_v29) = _
          after_results_simp
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by
          show StableHlo.after hostOps1 (W4 m ρ c) (Proc.devRef .tc main_v29) = _
          after_results_simp
    _ = W3 m ρ c (Proc.devRef .tc main_v29) := W4_of_ne m ρ c main_v29 (by decide)

end Cert.KernelIdeal.Layers.Kept

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.LibGraphLayerBlocks.lean ====
/-
  The two vector bodies of a graph-convolution layer, read at an entry, at the ideal values (the extended reals), for
  arbitrary extents.

  * `projection_apply`: the product of an `[m, k]` block by a `[k, n]` weight, both converted to a narrower
    float format first (at the ideal values a change of format is the identity) and accumulated from zero, is at
    `(a, b)` the sum over `c : Fin k` of `A (a, c) * B (c, b)`.
  * `bias_rectify_apply`: a `[1, n]` bias row added to every row of an `[m, n]` block, then the maximum with
    zero, is at `(a, b)` the number `max (X (a, b) + r (0, b)) 0`.
  * `bias_apply`: the same without the maximum.
-/
import Idealize.ShloMosaic.Lib.Pipeline.Value
import Idealize.ShloMosaic.Lib.ValueIdx
import Idealize.ShloMosaic.Lib.ValueLayout
import Idealize.ShloMosaic.PureOps.Ideal.Laws
import proofs.«161392_j49855980372167_1_alg».proof.Proof.LibDenseLayers

noncomputable section

namespace Idealize.ShloMosaic.GraphLayerBlocks

open Idealize.ShloMosaic Idealize.ShloMosaic.ValueIdx

/-- A block's projection by a weight matrix, both operands first converted to a narrower format: at the ideal
    values the conversions do nothing, and an entry is the row of the block times the column of the weight. -/
theorem projection_apply {m k n : ℕ}
    (w : DotDims.WF ⟨2, ![m, k]⟩ ⟨2, ![k, n]⟩ ⟨2, ![m, n]⟩ [1] [0] [0] [1] [] [])
    (h : FTy.bf16.bits < FTy.f32.bits)
    (A : FVec Ideal ⟨2, ![m, k]⟩ .f32) (B : FVec Ideal ⟨2, ![k, n]⟩ .f32) (a : Fin m) (b : Fin n) :
    matmul (⟨[1], [0], [0], [1], [], [], w⟩ : DotDims ⟨2, ![m, k]⟩ ⟨2, ![k, n]⟩ ⟨2, ![m, n]⟩) none
        (truncf .bf16 A h) (truncf .bf16 B h) (constant (F := Ideal) ⟨2, ![m, n]⟩ .f32 0x00000000#32) (ix2 a b)
      = ∑ c : Fin k, A (ix2 a c) * B (ix2 c b) :=
  DenseLayers.matmul_rowcol_zero_apply w none (truncf .bf16 A h) (truncf .bf16 B h) a b

/-- A bias row added to every row of a block, then rectified: entry `(a, b)` is `max (X (a, b) + r (0, b)) 0`. -/
theorem bias_rectify_apply {m n : ℕ}
    (h₀ : (⟨2, ![m, n]⟩ : Shape).ShapeCasts ⟨2, ![m, n]⟩) (h₁ : (⟨2, ![1, n]⟩ : Shape).ShapeCasts ⟨2, ![1, n]⟩)
    (h₂ : (⟨2, ![1, n]⟩ : Shape).Broadcasts ⟨2, ![m, n]⟩)
    (X : FVec Ideal ⟨2, ![m, n]⟩ .f32) (r : FVec Ideal ⟨2, ![1, n]⟩ .f32) (a : Fin m) (b : Fin n) :
    maximumf (addf (shapeCast ⟨2, ![m, n]⟩ X h₀)
        (broadcastTo ⟨2, ![m, n]⟩ (shapeCast ⟨2, ![1, n]⟩ (shapeCast ⟨2, ![1, n]⟩ r h₁) h₁) h₂))
      (broadcast ⟨2, ![m, n]⟩ (Scalar.ofBits (F := Ideal) .f32 0x00000000#32)) (ix2 a b)
      = max (X (ix2 a b) + r (ix2 (0 : Fin 1) b)) (Ideal.ofBits .f32 0x00000000#32) := by
  rw [shapeCast_self, shapeCast_self, shapeCast_self]
  show max (X (ix2 a b) + broadcastTo ⟨2, ![m, n]⟩ r h₂ (ix2 a b)) _ = _
  rw [broadcastTo_1b_ab_apply]
  rfl

/-- A bias row added to every row of a block: entry `(a, b)` is `X (a, b) + r (0, b)`. -/
theorem bias_apply {m n : ℕ}
    (h₀ : (⟨2, ![m, n]⟩ : Shape).ShapeCasts ⟨2, ![m, n]⟩) (h₁ : (⟨2, ![1, n]⟩ : Shape).ShapeCasts ⟨2, ![1, n]⟩)
    (h₂ : (⟨2, ![1, n]⟩ : Shape).Broadcasts ⟨2, ![m, n]⟩)
    (X : FVec Ideal ⟨2, ![m, n]⟩ .f32) (r : FVec Ideal ⟨2, ![1, n]⟩ .f32) (a : Fin m) (b : Fin n) :
    addf (shapeCast ⟨2, ![m, n]⟩ X h₀)
        (broadcastTo ⟨2, ![m, n]⟩ (shapeCast ⟨2, ![1, n]⟩ (shapeCast ⟨2, ![1, n]⟩ r h₁) h₁) h₂) (ix2 a b)
      = X (ix2 a b) + r (ix2 (0 : Fin 1) b) := by
  rw [shapeCast_self, shapeCast_self, shapeCast_self]
  show X (ix2 a b) + broadcastTo ⟨2, ![m, n]⟩ r h₂ (ix2 a b) = _
  rw [broadcastTo_1b_ab_apply]

end Idealize.ShloMosaic.GraphLayerBlocks

end
-- ==== Proof.LayerSpec.lean ====
/-
  The dense pieces of one graph-convolution layer as whole-array functions on the extended reals, index by index, for
  arbitrary extents (no program imported).

  * `project A B`: the matrix product, entry `(p, q)` the sum over `c` of `A (p, c) * B (c, q)`.
  * `biasRectify X r`: the one-row bias `r` added to every row of `X`, then the maximum with zero.
  * `biasAdd X r`: the bias added, no maximum.
-/
import Idealize.ShloMosaic.Lib.ValueIdx
import Idealize.ShloMosaic.PureOps.Ideal

noncomputable section

namespace Cert.LayerSpec

open Idealize.ShloMosaic Idealize.ShloMosaic.ValueIdx

/-- The matrix product of an `[m, k]` array by a `[k, n]` array on the extended reals. -/
def project {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (n0 := m) (i 0) c) * B (ix2 (n1 := n) c (i 1))

/-- A one-row bias added to every row, then rectified. -/
def biasRectify {m n : ℕ} (X : (⟨2, ![m, n]⟩ : Shape).Idx → EReal) (r : (⟨2, ![1, n]⟩ : Shape).Idx → EReal) :
    (⟨2, ![m, n]⟩ : Shape).Idx → EReal :=
  fun i => max (X i + r (ix2 (0 : Fin 1) (n1 := n) (i 1))) (Ideal.ofBits .f32 0x00000000#32)

/-- A one-row bias added to every row. -/
def biasAdd {m n : ℕ} (X : (⟨2, ![m, n]⟩ : Shape).Idx → EReal) (r : (⟨2, ![1, n]⟩ : Shape).Idx → EReal) :
    (⟨2, ![m, n]⟩ : Shape).Idx → EReal :=
  fun i => X i + r (ix2 (0 : Fin 1) (n1 := n) (i 1))

theorem project_apply {m k n : ℕ} (A : (⟨2, ![m, k]⟩ : Shape).Idx → EReal) (B : (⟨2, ![k, n]⟩ : Shape).Idx → EReal)
    (p : Fin m) (q : Fin n) : project A B (ix2 p q) = ∑ c : Fin k, A (ix2 p c) * B (ix2 c q) := rfl

theorem biasRectify_apply {m n : ℕ} (X : (⟨2, ![m, n]⟩ : Shape).Idx → EReal) (r : (⟨2, ![1, n]⟩ : Shape).Idx → EReal)
    (p : Fin m) (q : Fin n) :
    biasRectify X r (ix2 p q) = max (X (ix2 p q) + r (ix2 (0 : Fin 1) q)) (Ideal.ofBits .f32 0x00000000#32) := rfl

theorem biasAdd_apply {m n : ℕ} (X : (⟨2, ![m, n]⟩ : Shape).Idx → EReal) (r : (⟨2, ![1, n]⟩ : Shape).Idx → EReal)
    (p : Fin m) (q : Fin n) : biasAdd X r (ix2 p q) = X (ix2 p q) + r (ix2 (0 : Fin 1) q) := rfl

end Cert.LayerSpec

end
-- ==== Proof.Region0.lean ====
/-
  REGION 0: the first layer's projection, the node features times the first weight matrix.

  The region's grid has five points; point `t` reads rows `10000 t … 10000 t + 9999` of the node array, the whole
  weight matrix, and writes the same rows of the result. What one point writes back is the block's product with the
  weight (the operands' conversion to a narrower format is the identity at the ideal values), which is that row block
  of the whole product; the five row blocks tile the result array, so after the region the result array IS the
  whole product of the arrays the region found — whatever those arrays hold (the statement is for any entry contents
  `V`).
-/
import proofs.«161392_j49855980372167_1_alg».proof.Proof.Gen.KernelIdeal.Frame
import proofs.«161392_j49855980372167_1_alg».proof.Proof.LibGraphLayerBlocks
import proofs.«161392_j49855980372167_1_alg».proof.Proof.LayerSpec
import Idealize.ShloMosaic.Lib.Pipeline.Value

set_option maxRecDepth 16384

noncomputable section

namespace Cert.KernelIdeal.Layers.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the row of the loaded block times the column of the loaded weight. -/
theorem payload_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact GraphLayerBlocks.projection_apply dot_S10000x128_S128x64_S10000x64_1_0_0_1_n_n.wf bitsLt_bf16_f32 x0 x1 p q

/-- The printed index maps over the grid: the node window and the result window are at row block `t`, column block 0;
    the weight window is at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is row block `t` of the whole product of the arrays the region found. -/
theorem flushed_eq (c : Dev nD) (t : Fin cfg0.N) :
    (dat0 V c).flushed 2 t = ((cfg0.win 2).blk t).view.read (Elt Ideal)
      (LayerSpec.project (V c main_arg0 : S50000x128.Idx → EReal) (V c main_arg2 : S128x64.Idx → EReal)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  have hp : p.val < 10000 := p.isLt
  have hN : t.val < 5 := by have h5 : cfg0.N = 5 := N_0; have := t.isLt; omega
  show k0_pay1 (iblk0 V c 0 t) (iblk0 V c 1 t) (ix2 p q)
    = LayerSpec.project (V c main_arg0 : S50000x128.Idx → EReal) (V c main_arg2 : S128x64.Idx → EReal) (((cfg0.win 2).blk t).view.emb (ix2 p q))
  have hemb : ((cfg0.win 2).blk t).view.emb (ix2 p q) = (ix2 (⟨10000 * t.val + p.val, by omega⟩ : Fin 50000) q : S50000x64.Idx) := by
    funext a; apply Fin.ext
    match a with
    | ⟨0, _⟩ => show win0_2.index t (0 : Fin 2) * 10000 + 1 * p.val = 10000 * t.val + p.val; omega
    | ⟨1, _⟩ => show win0_2.index t (1 : Fin 2) * 64 + 1 * q.val = q.val; omega
  rw [hemb, LayerSpec.project_apply]
  refine (payload_apply (iblk0 V c 0 t) (iblk0 V c 1 t) p q).trans ?_
  refine Finset.sum_congr rfl fun k _ => ?_
  have h0 : (iblk0 V c 0 t : Vec Ideal S10000x128 .f32) (ix2 p k)
      = (V c main_arg0 : S50000x128.Idx → EReal) (ix2 (⟨10000 * t.val + p.val, by omega⟩ : Fin 50000) k) := by
    show (V c main_arg0 : S50000x128.Idx → EReal) (((cfg0.win 0).blk t).view.emb (ix2 p k)) = _
    refine congrArg _ (funext fun a => Fin.ext ?_)
    match a with
    | ⟨0, _⟩ => show win0_0.index t (0 : Fin 2) * 10000 + 1 * p.val = 10000 * t.val + p.val; omega
    | ⟨1, _⟩ => show win0_0.index t (1 : Fin 2) * 128 + 1 * k.val = k.val; omega
  have h1 : (iblk0 V c 1 t : Vec Ideal S128x64 .f32) (ix2 k q) = (V c main_arg2 : S128x64.Idx → EReal) (ix2 k q) := by
    show (V c main_arg2 : S128x64.Idx → EReal) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  rw [h0, h1]

/-- An index of the result array is in point `t`'s block iff each coordinate is in the block's range on its axis. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The five row blocks cover the result array: row `r` is in the block of point `r / 10000`. -/
theorem cover (i : S50000x64.Idx) :
    ∃ t : Fin cfg0.N, (cfg0.win 2).flush t = true ∧ i ∈ ((cfg0.win 2).blk t).view.set := by
  have h0 : (i 0).val < 50000 := (i 0).isLt
  have h1 : (i 1).val < 64 := (i 1).isLt
  obtain ⟨t, ht⟩ : ∃ t : Fin cfg0.N, t.val = (i 0).val / 10000 :=
    ⟨⟨(i 0).val / 10000, by have h5 : cfg0.N = 5 := N_0; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region its result array is the whole product of the two arrays it found. -/
theorem final (c : Dev nD) : (dat0 V c).arrAt 2 cfg0.N
    = LayerSpec.project (V c main_arg0 : S50000x128.Idx → EReal) (V c main_arg2 : S128x64.Idx → EReal) :=
  (dat0 V c).arrAt_eq_of_cover 2 _ (fun t _ => flushed_eq V c t) cover

end Cert.KernelIdeal.Layers.Region0

end
-- ==== Proof.Region1.lean ====
/-
  REGION 1: the first layer's bias and rectifier.

  The region's grid has five points; point `t` reads rows `10000 t … 10000 t + 9999` of the aggregated array, the
  whole one-row bias, and writes the same rows of the result. What one point writes back is the block with the bias
  row added to each of its rows and the maximum with zero taken, which is that row block of the same operation on the whole array; the five
  row blocks tile the result array, so after the region the result array IS that operation of the arrays the region
  found — whatever those arrays hold (the statement is for any entry contents `V`).
-/
import proofs.«161392_j49855980372167_1_alg».proof.Proof.Gen.KernelIdeal.Frame
import proofs.«161392_j49855980372167_1_alg».proof.Proof.LibGraphLayerBlocks
import proofs.«161392_j49855980372167_1_alg».proof.Proof.LayerSpec
import Idealize.ShloMosaic.Lib.Pipeline.Value

set_option maxRecDepth 16384

noncomputable section

namespace Cert.KernelIdeal.Layers.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the block's entry plus the bias of its column, rectified. -/
theorem payload_apply (x0 : Vec Ideal S10000x64 .f32) (x1 : Vec Ideal S1x64 .f32) (p : Fin 10000) (q : Fin 64) :
    k1_pay1 x0 x1 (ix2 p q) = max (x0 (ix2 p q) + x1 (ix2 (0 : Fin 1) q)) (Ideal.ofBits .f32 0x00000000#32) := by
  unfold k1_pay1
  exact GraphLayerBlocks.bias_rectify_apply shapeCasts_S10000x64_S10000x64 shapeCasts_S1x64_S1x64 broadcasts_S1x64_S10000x64 x0 x1 p q

/-- The printed index maps over the grid: the aggregated window and the result window are at row block `t`, column
    block 0; the bias window is at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is row block `t` of the bias step on the whole arrays the region found. -/
theorem flushed_eq (c : Dev nD) (t : Fin cfg1.N) :
    (dat1 V c).flushed 2 t = ((cfg1.win 2).blk t).view.read (Elt Ideal)
      (LayerSpec.biasRectify (V c main_v43 : S50000x64.Idx → EReal) (V c main_v44 : S1x64.Idx → EReal)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  have hp : p.val < 10000 := p.isLt
  have hN : t.val < 5 := by have h5 : cfg1.N = 5 := N_1; have := t.isLt; omega
  show k1_pay1 (iblk1 V c 0 t) (iblk1 V c 1 t) (ix2 p q)
    = LayerSpec.biasRectify (V c main_v43 : S50000x64.Idx → EReal) (V c main_v44 : S1x64.Idx → EReal) (((cfg1.win 2).blk t).view.emb (ix2 p q))
  have hemb : ((cfg1.win 2).blk t).view.emb (ix2 p q) = (ix2 (⟨10000 * t.val + p.val, by omega⟩ : Fin 50000) q : S50000x64.Idx) := by
    funext a; apply Fin.ext
    match a with
    | ⟨0, _⟩ => show win1_2.index t (0 : Fin 2) * 10000 + 1 * p.val = 10000 * t.val + p.val; omega
    | ⟨1, _⟩ => show win1_2.index t (1 : Fin 2) * 64 + 1 * q.val = q.val; omega
  rw [hemb, LayerSpec.biasRectify_apply]
  refine (payload_apply (iblk1 V c 0 t) (iblk1 V c 1 t) p q).trans ?_
  have h0 : (iblk1 V c 0 t : Vec Ideal S10000x64 .f32) (ix2 p q)
      = (V c main_v43 : S50000x64.Idx → EReal) (ix2 (⟨10000 * t.val + p.val, by omega⟩ : Fin 50000) q) := by
    show (V c main_v43 : S50000x64.Idx → EReal) (((cfg1.win 0).blk t).view.emb (ix2 p q)) = _
    refine congrArg _ (funext fun a => Fin.ext ?_)
    match a with
    | ⟨0, _⟩ => show win1_0.index t (0 : Fin 2) * 10000 + 1 * p.val = 10000 * t.val + p.val; omega
    | ⟨1, _⟩ => show win1_0.index t (1 : Fin 2) * 64 + 1 * q.val = q.val; omega
  have h1 : (iblk1 V c 1 t : Vec Ideal S1x64 .f32) (ix2 (0 : Fin 1) q) = (V c main_v44 : S1x64.Idx → EReal) (ix2 (0 : Fin 1) q) := by
    show (V c main_v44 : S1x64.Idx → EReal) (((cfg1.win 1).blk t).view.emb (ix2 (0 : Fin 1) q)) = _
    refine congrArg _ (funext fun a => Fin.ext ?_)
    match a with
    | ⟨0, _⟩ => show win1_1.index t (0 : Fin 2) * 1 + 1 * (0 : Fin 1).val = (0 : Fin 1).val; omega
    | ⟨1, _⟩ => show win1_1.index t (1 : Fin 2) * 64 + 1 * q.val = q.val; omega
  rw [h0, h1]

/-- An index of the result array is in point `t`'s block iff each coordinate is in the block's range on its axis. -/
theorem mem_blk (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- The five row blocks cover the result array: row `r` is in the block of point `r / 10000`. -/
theorem cover (i : S50000x64.Idx) :
    ∃ t : Fin cfg1.N, (cfg1.win 2).flush t = true ∧ i ∈ ((cfg1.win 2).blk t).view.set := by
  have h0 : (i 0).val < 50000 := (i 0).isLt
  have h1 : (i 1).val < 64 := (i 1).isLt
  obtain ⟨t, ht⟩ : ∃ t : Fin cfg1.N, t.val = (i 0).val / 10000 :=
    ⟨⟨(i 0).val / 10000, by have h5 : cfg1.N = 5 := N_1; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region its result array is the bias step on the two arrays it found. -/
theorem final (c : Dev nD) : (dat1 V c).arrAt 2 cfg1.N
    = LayerSpec.biasRectify (V c main_v43 : S50000x64.Idx → EReal) (V c main_v44 : S1x64.Idx → EReal) :=
  (dat1 V c).arrAt_eq_of_cover 2 _ (fun t _ => flushed_eq V c t) cover

end Cert.KernelIdeal.Layers.Region1

end
-- ==== Proof.Region2.lean ====
/-
  REGION 2: the second layer's projection, the first layer's output times the second weight matrix.

  The region's grid has five points; point `t` reads rows `10000 t … 10000 t + 9999` of the node array, the whole
  weight matrix, and writes the same rows of the result. What one point writes back is the block's product with the
  weight (the operands' conversion to a narrower format is the identity at the ideal values), which is that row block
  of the whole product; the five row blocks tile the result array, so after the region the result array IS the
  whole product of the arrays the region found — whatever those arrays hold (the statement is for any entry contents
  `V`).
-/
import proofs.«161392_j49855980372167_1_alg».proof.Proof.Gen.KernelIdeal.Frame
import proofs.«161392_j49855980372167_1_alg».proof.Proof.LibGraphLayerBlocks
import proofs.«161392_j49855980372167_1_alg».proof.Proof.LayerSpec
import Idealize.ShloMosaic.Lib.Pipeline.Value

set_option maxRecDepth 16384

noncomputable section

namespace Cert.KernelIdeal.Layers.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the row of the loaded block times the column of the loaded weight. -/
theorem payload_apply (x0 : Vec Ideal S10000x64 .f32) (x1 : Vec Ideal S64x64 .f32) (p : Fin 10000) (q : Fin 64) :
    k2_pay1 x0 x1 (ix2 p q) = ∑ k : Fin 64, x0 (ix2 p k) * x1 (ix2 k q) := by
  unfold k2_pay1
  exact GraphLayerBlocks.projection_apply dot_S10000x64_S64x64_S10000x64_1_0_0_1_n_n.wf bitsLt_bf16_f32 (shapeCast S10000x64 x0 shapeCasts_S10000x64_S10000x64) x1 p q |>.trans (by rw [shapeCast_self])

/-- The printed index maps over the grid: the node window and the result window are at row block `t`, column block 0;
    the weight window is at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is row block `t` of the whole product of the arrays the region found. -/
theorem flushed_eq (c : Dev nD) (t : Fin cfg2.N) :
    (dat2 V c).flushed 2 t = ((cfg2.win 2).blk t).view.read (Elt Ideal)
      (LayerSpec.project (V c main_v45 : S50000x64.Idx → EReal) (V c main_arg4 : S64x64.Idx → EReal)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  have hp : p.val < 10000 := p.isLt
  have hN : t.val < 5 := by have h5 : cfg2.N = 5 := N_2; have := t.isLt; omega
  show k2_pay1 (iblk2 V c 0 t) (iblk2 V c 1 t) (ix2 p q)
    = LayerSpec.project (V c main_v45 : S50000x64.Idx → EReal) (V c main_arg4 : S64x64.Idx → EReal) (((cfg2.win 2).blk t).view.emb (ix2 p q))
  have hemb : ((cfg2.win 2).blk t).view.emb (ix2 p q) = (ix2 (⟨10000 * t.val + p.val, by omega⟩ : Fin 50000) q : S50000x64.Idx) := by
    funext a; apply Fin.ext
    match a with
    | ⟨0, _⟩ => show win2_2.index t (0 : Fin 2) * 10000 + 1 * p.val = 10000 * t.val + p.val; omega
    | ⟨1, _⟩ => show win2_2.index t (1 : Fin 2) * 64 + 1 * q.val = q.val; omega
  rw [hemb, LayerSpec.project_apply]
  refine (payload_apply (iblk2 V c 0 t) (iblk2 V c 1 t) p q).trans ?_
  refine Finset.sum_congr rfl fun k _ => ?_
  have h0 : (iblk2 V c 0 t : Vec Ideal S10000x64 .f32) (ix2 p k)
      = (V c main_v45 : S50000x64.Idx → EReal) (ix2 (⟨10000 * t.val + p.val, by omega⟩ : Fin 50000) k) := by
    show (V c main_v45 : S50000x64.Idx → EReal) (((cfg2.win 0).blk t).view.emb (ix2 p k)) = _
    refine congrArg _ (funext fun a => Fin.ext ?_)
    match a with
    | ⟨0, _⟩ => show win2_0.index t (0 : Fin 2) * 10000 + 1 * p.val = 10000 * t.val + p.val; omega
    | ⟨1, _⟩ => show win2_0.index t (1 : Fin 2) * 64 + 1 * k.val = k.val; omega
  have h1 : (iblk2 V c 1 t : Vec Ideal S64x64 .f32) (ix2 k q) = (V c main_arg4 : S64x64.Idx → EReal) (ix2 k q) := by
    show (V c main_arg4 : S64x64.Idx → EReal) (((cfg2.win 1).blk t).view.emb (ix2 k q)) = _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega
  rw [h0, h1]

/-- An index of the result array is in point `t`'s block iff each coordinate is in the block's range on its axis. -/
theorem mem_blk (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- The five row blocks cover the result array: row `r` is in the block of point `r / 10000`. -/
theorem cover (i : S50000x64.Idx) :
    ∃ t : Fin cfg2.N, (cfg2.win 2).flush t = true ∧ i ∈ ((cfg2.win 2).blk t).view.set := by
  have h0 : (i 0).val < 50000 := (i 0).isLt
  have h1 : (i 1).val < 64 := (i 1).isLt
  obtain ⟨t, ht⟩ : ∃ t : Fin cfg2.N, t.val = (i 0).val / 10000 :=
    ⟨⟨(i 0).val / 10000, by have h5 : cfg2.N = 5 := N_2; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region its result array is the whole product of the two arrays it found. -/
theorem final (c : Dev nD) : (dat2 V c).arrAt 2 cfg2.N
    = LayerSpec.project (V c main_v45 : S50000x64.Idx → EReal) (V c main_arg4 : S64x64.Idx → EReal) :=
  (dat2 V c).arrAt_eq_of_cover 2 _ (fun t _ => flushed_eq V c t) cover

end Cert.KernelIdeal.Layers.Region2

end
-- ==== Proof.Region3.lean ====
/-
  REGION 3: the second layer's bias and rectifier.

  The region's grid has five points; point `t` reads rows `10000 t … 10000 t + 9999` of the aggregated array, the
  whole one-row bias, and writes the same rows of the result. What one point writes back is the block with the bias
  row added to each of its rows and the maximum with zero taken, which is that row block of the same operation on the whole array; the five
  row blocks tile the result array, so after the region the result array IS that operation of the arrays the region
  found — whatever those arrays hold (the statement is for any entry contents `V`).
-/
import proofs.«161392_j49855980372167_1_alg».proof.Proof.Gen.KernelIdeal.Frame
import proofs.«161392_j49855980372167_1_alg».proof.Proof.LibGraphLayerBlocks
import proofs.«161392_j49855980372167_1_alg».proof.Proof.LayerSpec
import Idealize.ShloMosaic.Lib.Pipeline.Value

set_option maxRecDepth 16384

noncomputable section

namespace Cert.KernelIdeal.Layers.Region3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the block's entry plus the bias of its column, rectified. -/
theorem payload_apply (x0 : Vec Ideal S10000x64 .f32) (x1 : Vec Ideal S1x64 .f32) (p : Fin 10000) (q : Fin 64) :
    k3_pay1 x0 x1 (ix2 p q) = max (x0 (ix2 p q) + x1 (ix2 (0 : Fin 1) q)) (Ideal.ofBits .f32 0x00000000#32) := by
  unfold k3_pay1
  exact GraphLayerBlocks.bias_rectify_apply shapeCasts_S10000x64_S10000x64 shapeCasts_S1x64_S1x64 broadcasts_S1x64_S10000x64 x0 x1 p q

/-- The printed index maps over the grid: the aggregated window and the result window are at row block `t`, column
    block 0; the bias window is at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is row block `t` of the bias step on the whole arrays the region found. -/
theorem flushed_eq (c : Dev nD) (t : Fin cfg3.N) :
    (dat3 V c).flushed 2 t = ((cfg3.win 2).blk t).view.read (Elt Ideal)
      (LayerSpec.biasRectify (V c main_v59 : S50000x64.Idx → EReal) (V c main_v60 : S1x64.Idx → EReal)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  have hp : p.val < 10000 := p.isLt
  have hN : t.val < 5 := by have h5 : cfg3.N = 5 := N_3; have := t.isLt; omega
  show k3_pay1 (iblk3 V c 0 t) (iblk3 V c 1 t) (ix2 p q)
    = LayerSpec.biasRectify (V c main_v59 : S50000x64.Idx → EReal) (V c main_v60 : S1x64.Idx → EReal) (((cfg3.win 2).blk t).view.emb (ix2 p q))
  have hemb : ((cfg3.win 2).blk t).view.emb (ix2 p q) = (ix2 (⟨10000 * t.val + p.val, by omega⟩ : Fin 50000) q : S50000x64.Idx) := by
    funext a; apply Fin.ext
    match a with
    | ⟨0, _⟩ => show win3_2.index t (0 : Fin 2) * 10000 + 1 * p.val = 10000 * t.val + p.val; omega
    | ⟨1, _⟩ => show win3_2.index t (1 : Fin 2) * 64 + 1 * q.val = q.val; omega
  rw [hemb, LayerSpec.biasRectify_apply]
  refine (payload_apply (iblk3 V c 0 t) (iblk3 V c 1 t) p q).trans ?_
  have h0 : (iblk3 V c 0 t : Vec Ideal S10000x64 .f32) (ix2 p q)
      = (V c main_v59 : S50000x64.Idx → EReal) (ix2 (⟨10000 * t.val + p.val, by omega⟩ : Fin 50000) q) := by
    show (V c main_v59 : S50000x64.Idx → EReal) (((cfg3.win 0).blk t).view.emb (ix2 p q)) = _
    refine congrArg _ (funext fun a => Fin.ext ?_)
    match a with
    | ⟨0, _⟩ => show win3_0.index t (0 : Fin 2) * 10000 + 1 * p.val = 10000 * t.val + p.val; omega
    | ⟨1, _⟩ => show win3_0.index t (1 : Fin 2) * 64 + 1 * q.val = q.val; omega
  have h1 : (iblk3 V c 1 t : Vec Ideal S1x64 .f32) (ix2 (0 : Fin 1) q) = (V c main_v60 : S1x64.Idx → EReal) (ix2 (0 : Fin 1) q) := by
    show (V c main_v60 : S1x64.Idx → EReal) (((cfg3.win 1).blk t).view.emb (ix2 (0 : Fin 1) q)) = _
    refine congrArg _ (funext fun a => Fin.ext ?_)
    match a with
    | ⟨0, _⟩ => show win3_1.index t (0 : Fin 2) * 1 + 1 * (0 : Fin 1).val = (0 : Fin 1).val; omega
    | ⟨1, _⟩ => show win3_1.index t (1 : Fin 2) * 64 + 1 * q.val = q.val; omega
  rw [h0, h1]

/-- An index of the result array is in point `t`'s block iff each coordinate is in the block's range on its axis. -/
theorem mem_blk (t : Fin cfg3.N) (i : S50000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- The five row blocks cover the result array: row `r` is in the block of point `r / 10000`. -/
theorem cover (i : S50000x64.Idx) :
    ∃ t : Fin cfg3.N, (cfg3.win 2).flush t = true ∧ i ∈ ((cfg3.win 2).blk t).view.set := by
  have h0 : (i 0).val < 50000 := (i 0).isLt
  have h1 : (i 1).val < 64 := (i 1).isLt
  obtain ⟨t, ht⟩ : ∃ t : Fin cfg3.N, t.val = (i 0).val / 10000 :=
    ⟨⟨(i 0).val / 10000, by have h5 : cfg3.N = 5 := N_3; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region its result array is the bias step on the two arrays it found. -/
theorem final (c : Dev nD) : (dat3 V c).arrAt 2 cfg3.N
    = LayerSpec.biasRectify (V c main_v59 : S50000x64.Idx → EReal) (V c main_v60 : S1x64.Idx → EReal) :=
  (dat3 V c).arrAt_eq_of_cover 2 _ (fun t _ => flushed_eq V c t) cover

end Cert.KernelIdeal.Layers.Region3

end
-- ==== Proof.Region4.lean ====
/-
  REGION 4: the third layer's projection, the second layer's output times the third weight matrix.

  The region's grid has five points; point `t` reads rows `10000 t … 10000 t + 9999` of the node array, the whole
  weight matrix, and writes the same rows of the result. What one point writes back is the block's product with the
  weight (the operands' conversion to a narrower format is the identity at the ideal values), which is that row block
  of the whole product; the five row blocks tile the result array, so after the region the result array IS the
  whole product of the arrays the region found — whatever those arrays hold (the statement is for any entry contents
  `V`).
-/
import proofs.«161392_j49855980372167_1_alg».proof.Proof.Gen.KernelIdeal.Frame
import proofs.«161392_j49855980372167_1_alg».proof.Proof.LibGraphLayerBlocks
import proofs.«161392_j49855980372167_1_alg».proof.Proof.LayerSpec
import Idealize.ShloMosaic.Lib.Pipeline.Value

set_option maxRecDepth 16384

noncomputable section

namespace Cert.KernelIdeal.Layers.Region4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the row of the loaded block times the column of the loaded weight. -/
theorem payload_apply (x0 : Vec Ideal S10000x64 .f32) (x1 : Vec Ideal S64x40 .f32) (p : Fin 10000) (q : Fin 40) :
    k4_pay1 x0 x1 (ix2 p q) = ∑ k : Fin 64, x0 (ix2 p k) * x1 (ix2 k q) := by
  unfold k4_pay1
  exact GraphLayerBlocks.projection_apply dot_S10000x64_S64x40_S10000x40_1_0_0_1_n_n.wf bitsLt_bf16_f32 (shapeCast S10000x64 x0 shapeCasts_S10000x64_S10000x64) x1 p q |>.trans (by rw [shapeCast_self])

/-- The printed index maps over the grid: the node window and the result window are at row block `t`, column block 0;
    the weight window is at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is row block `t` of the whole product of the arrays the region found. -/
theorem flushed_eq (c : Dev nD) (t : Fin cfg4.N) :
    (dat4 V c).flushed 2 t = ((cfg4.win 2).blk t).view.read (Elt Ideal)
      (LayerSpec.project (V c main_v61 : S50000x64.Idx → EReal) (V c main_arg6 : S64x40.Idx → EReal)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x40) hz]
  obtain ⟨e0, e1, e2, e3, e4, e5⟩ := idx_facts t
  funext j
  obtain ⟨p, q, rfl⟩ : ∃ (p : Fin 10000) (q : Fin 40), j = ix2 p q := ⟨j 0, j 1, eq_ix2 j⟩
  have hp : p.val < 10000 := p.isLt
  have hN : t.val < 5 := by have h5 : cfg4.N = 5 := N_4; have := t.isLt; omega
  show k4_pay1 (iblk4 V c 0 t) (iblk4 V c 1 t) (ix2 p q)
    = LayerSpec.project (V c main_v61 : S50000x64.Idx → EReal) (V c main_arg6 : S64x40.Idx → EReal) (((cfg4.win 2).blk t).view.emb (ix2 p q))
  have hemb : ((cfg4.win 2).blk t).view.emb (ix2 p q) = (ix2 (⟨10000 * t.val + p.val, by omega⟩ : Fin 50000) q : S50000x40.Idx) := by
    funext a; apply Fin.ext
    match a with
    | ⟨0, _⟩ => show win4_2.index t (0 : Fin 2) * 10000 + 1 * p.val = 10000 * t.val + p.val; omega
    | ⟨1, _⟩ => show win4_2.index t (1 : Fin 2) * 40 + 1 * q.val = q.val; omega
  rw [hemb, LayerSpec.project_apply]
  refine (payload_apply (iblk4 V c 0 t) (iblk4 V c 1 t) p q).trans ?_
  refine Finset.sum_congr rfl fun k _ => ?_
  have h0 : (iblk4 V c 0 t : Vec Ideal S10000x64 .f32) (ix2 p k)
      = (V c main_v61 : S50000x64.Idx → EReal) (ix2 (⟨10000 * t.val + p.val, by omega⟩ : Fin 50000) k) := by
    show (V c main_v61 : S50000x64.Idx → EReal) (((cfg4.win 0).blk t).view.emb (ix2 p k)) = _
    refine congrArg _ (funext fun a => Fin.ext ?_)
    match a with
    | ⟨0, _⟩ => show win4_0.index t (0 : Fin 2) * 10000 + 1 * p.val = 10000 * t.val + p.val; omega
    | ⟨1, _⟩ => show win4_0.index t (1 : Fin 2) * 64 + 1 * k.val = k.val; omega
  have h1 : (iblk4 V c 1 t : Vec Ideal S64x40 .f32) (ix2 k q) = (V c main_arg6 : S64x40.Idx → EReal) (ix2 k q) := by
    show (V c main_arg6 : S64x40.Idx → EReal) (((cfg4.win 1).blk t).view.emb (ix2 k q)) = _
    refine congrArg _ (funext fun a => Fin.ext ?_)
    match a with
    | ⟨0, _⟩ => show win4_1.index t (0 : Fin 2) * 64 + 1 * k.val = k.val; omega
    | ⟨1, _⟩ => show win4_1.index t (1 : Fin 2) * 40 + 1 * q.val = q.val; omega
  rw [h0, h1]

/-- An index of the result array is in point `t`'s block iff each coordinate is in the block's range on its axis. -/
theorem mem_blk (t : Fin cfg4.N) (i : S50000x40.Idx) :
    i ∈ ((cfg4.win 2).blk t).view.set ↔ ∀ a : Fin 2, win4_2.index t a * S10000x40.size a ≤ (i a).val ∧ (i a).val < win4_2.index t a * S10000x40.size a + S10000x40.size a := by
  show i ∈ ((View.whole main_v62).slice (win4_2.rect t)).set ↔ _
  rw [View.set_slice_whole, Rect.mem_set_unit]
  exact Iff.rfl

/-- The five row blocks cover the result array: row `r` is in the block of point `r / 10000`. -/
theorem cover (i : S50000x40.Idx) :
    ∃ t : Fin cfg4.N, (cfg4.win 2).flush t = true ∧ i ∈ ((cfg4.win 2).blk t).view.set := by
  have h0 : (i 0).val < 50000 := (i 0).isLt
  have h1 : (i 1).val < 40 := (i 1).isLt
  obtain ⟨t, ht⟩ : ∃ t : Fin cfg4.N, t.val = (i 0).val / 10000 :=
    ⟨⟨(i 0).val / 10000, by have h5 : cfg4.N = 5 := N_4; omega⟩, rfl⟩
  obtain ⟨e0, e1, e2, e3, e4, e5⟩ := idx_facts t
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 40 ≤ (i 1).val ∧ (i 1).val < win4_2.index t (1 : Fin 2) * 40 + 40; omega

/-- After the region its result array is the whole product of the two arrays it found. -/
theorem final (c : Dev nD) : (dat4 V c).arrAt 2 cfg4.N
    = LayerSpec.project (V c main_v61 : S50000x64.Idx → EReal) (V c main_arg6 : S64x40.Idx → EReal) :=
  (dat4 V c).arrAt_eq_of_cover 2 _ (fun t _ => flushed_eq V c t) cover

end Cert.KernelIdeal.Layers.Region4

end
-- ==== Proof.Region5.lean ====
/-
  REGION 5: the third layer's bias (no rectifier): the result.

  The region's grid has five points; point `t` reads rows `10000 t … 10000 t + 9999` of the aggregated array, the
  whole one-row bias, and writes the same rows of the result. What one point writes back is the block with the bias
  row added to each of its rows, which is that row block of the same operation on the whole array; the five
  row blocks tile the result array, so after the region the result array IS that operation of the arrays the region
  found — whatever those arrays hold (the statement is for any entry contents `V`).
-/
import proofs.«161392_j49855980372167_1_alg».proof.Proof.Gen.KernelIdeal.Frame
import proofs.«161392_j49855980372167_1_alg».proof.Proof.LibGraphLayerBlocks
import proofs.«161392_j49855980372167_1_alg».proof.Proof.LayerSpec
import Idealize.ShloMosaic.Lib.Pipeline.Value

set_option maxRecDepth 16384

noncomputable section

namespace Cert.KernelIdeal.Layers.Region5

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the block's entry plus the bias of its column. -/
theorem payload_apply (x0 : Vec Ideal S10000x40 .f32) (x1 : Vec Ideal S1x40 .f32) (p : Fin 10000) (q : Fin 40) :
    k5_pay1 x0 x1 (ix2 p q) = x0 (ix2 p q) + x1 (ix2 (0 : Fin 1) q) := by
  unfold k5_pay1
  exact GraphLayerBlocks.bias_apply shapeCasts_S10000x40_S10000x40 shapeCasts_S1x40_S1x40 broadcasts_S1x40_S10000x40 x0 x1 p q

/-- The printed index maps over the grid: the aggregated window and the result window are at row block `t`, column
    block 0; the bias window is at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is row block `t` of the bias step on the whole arrays the region found. -/
theorem flushed_eq (c : Dev nD) (t : Fin cfg5.N) :
    (dat5 V c).flushed 2 t = ((cfg5.win 2).blk t).view.read (Elt Ideal)
      (LayerSpec.biasAdd (V c main_v75 : S50000x40.Idx → EReal) (V c main_v76 : S1x40.Idx → EReal)) := by
  show (cfg5.win 2).cut (grid5.coords t) ((dat5 V c).after 2 t) = _
  rw [after5_2]
  unfold out5_2
  rw [View.canon_unit_zero hz]
  simp only [View.ld_unit_zero (S := S10000x40) hz, View.ld_unit_zero (S := S1x40) hz]
  obtain ⟨e0, e1, e2, e3, e4, e5⟩ := idx_facts t
  funext j
  obtain ⟨p, q, rfl⟩ : ∃ (p : Fin 10000) (q : Fin 40), j = ix2 p q := ⟨j 0, j 1, eq_ix2 j⟩
  have hp : p.val < 10000 := p.isLt
  have hN : t.val < 5 := by have h5 : cfg5.N = 5 := N_5; have := t.isLt; omega
  show k5_pay1 (iblk5 V c 0 t) (iblk5 V c 1 t) (ix2 p q)
    = LayerSpec.biasAdd (V c main_v75 : S50000x40.Idx → EReal) (V c main_v76 : S1x40.Idx → EReal) (((cfg5.win 2).blk t).view.emb (ix2 p q))
  have hemb : ((cfg5.win 2).blk t).view.emb (ix2 p q) = (ix2 (⟨10000 * t.val + p.val, by omega⟩ : Fin 50000) q : S50000x40.Idx) := by
    funext a; apply Fin.ext
    match a with
    | ⟨0, _⟩ => show win5_2.index t (0 : Fin 2) * 10000 + 1 * p.val = 10000 * t.val + p.val; omega
    | ⟨1, _⟩ => show win5_2.index t (1 : Fin 2) * 40 + 1 * q.val = q.val; omega
  rw [hemb, LayerSpec.biasAdd_apply]
  refine (payload_apply (iblk5 V c 0 t) (iblk5 V c 1 t) p q).trans ?_
  have h0 : (iblk5 V c 0 t : Vec Ideal S10000x40 .f32) (ix2 p q)
      = (V c main_v75 : S50000x40.Idx → EReal) (ix2 (⟨10000 * t.val + p.val, by omega⟩ : Fin 50000) q) := by
    show (V c main_v75 : S50000x40.Idx → EReal) (((cfg5.win 0).blk t).view.emb (ix2 p q)) = _
    refine congrArg _ (funext fun a => Fin.ext ?_)
    match a with
    | ⟨0, _⟩ => show win5_0.index t (0 : Fin 2) * 10000 + 1 * p.val = 10000 * t.val + p.val; omega
    | ⟨1, _⟩ => show win5_0.index t (1 : Fin 2) * 40 + 1 * q.val = q.val; omega
  have h1 : (iblk5 V c 1 t : Vec Ideal S1x40 .f32) (ix2 (0 : Fin 1) q) = (V c main_v76 : S1x40.Idx → EReal) (ix2 (0 : Fin 1) q) := by
    show (V c main_v76 : S1x40.Idx → EReal) (((cfg5.win 1).blk t).view.emb (ix2 (0 : Fin 1) q)) = _
    refine congrArg _ (funext fun a => Fin.ext ?_)
    match a with
    | ⟨0, _⟩ => show win5_1.index t (0 : Fin 2) * 1 + 1 * (0 : Fin 1).val = (0 : Fin 1).val; omega
    | ⟨1, _⟩ => show win5_1.index t (1 : Fin 2) * 40 + 1 * q.val = q.val; omega
  rw [h0, h1]

/-- An index of the result array is in point `t`'s block iff each coordinate is in the block's range on its axis. -/
theorem mem_blk (t : Fin cfg5.N) (i : S50000x40.Idx) :
    i ∈ ((cfg5.win 2).blk t).view.set ↔ ∀ a : Fin 2, win5_2.index t a * S10000x40.size a ≤ (i a).val ∧ (i a).val < win5_2.index t a * S10000x40.size a + S10000x40.size a := by
  show i ∈ ((View.whole main_v77).slice (win5_2.rect t)).set ↔ _
  rw [View.set_slice_whole, Rect.mem_set_unit]
  exact Iff.rfl

/-- The five row blocks cover the result array: row `r` is in the block of point `r / 10000`. -/
theorem cover (i : S50000x40.Idx) :
    ∃ t : Fin cfg5.N, (cfg5.win 2).flush t = true ∧ i ∈ ((cfg5.win 2).blk t).view.set := by
  have h0 : (i 0).val < 50000 := (i 0).isLt
  have h1 : (i 1).val < 40 := (i 1).isLt
  obtain ⟨t, ht⟩ : ∃ t : Fin cfg5.N, t.val = (i 0).val / 10000 :=
    ⟨⟨(i 0).val / 10000, by have h5 : cfg5.N = 5 := N_5; omega⟩, rfl⟩
  obtain ⟨e0, e1, e2, e3, e4, e5⟩ := idx_facts t
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 40 ≤ (i 1).val ∧ (i 1).val < win5_2.index t (1 : Fin 2) * 40 + 40; omega

/-- After the region its result array is the bias step on the two arrays it found. -/
theorem final (c : Dev nD) : (dat5 V c).arrAt 2 cfg5.N
    = LayerSpec.biasAdd (V c main_v75 : S50000x40.Idx → EReal) (V c main_v76 : S1x40.Idx → EReal) :=
  (dat5 V c).arrAt_eq_of_cover 2 _ (fun t _ => flushed_eq V c t) cover

end Cert.KernelIdeal.Layers.Region5

end
-- ==== Proof.RefLayers.lean ====
/-
  The reference's dense stages as the layer functions of `LayerSpec`, at the ideal values.

  The reference's @main, read one operation at a time by the imported stage module, is per layer a `dot_general`, a
  gather / scale / scatter-add over the edge list, a bias broadcast and added, and (two layers) a maximum with zero.
  Here each `dot_general` stage is identified with `LayerSpec.project` of its operands, and each bias (and rectifier)
  stage with `LayerSpec.biasRectify` / `biasAdd` of the aggregated array and the bias laid out as one row: index by
  index both sides are the same sum, resp. the same sum-and-maximum, once the stage's index functions are read as
  coordinates.
-/
import proofs.«161392_j49855980372167_1_alg».proof.Proof.RefReadPatched
import proofs.«161392_j49855980372167_1_alg».proof.Proof.LayerSpec
import Idealize.ShloMosaic.Lib.ValueLayout

noncomputable section

namespace Cert.ReferenceIdeal.Layers

open Cert.ReferenceIdeal Cert.ReferenceIdeal.ReadP
open Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x40, .f32⟩ : BufTy).Contents (Elt Ideal)) (x7 : (⟨S40, .f32⟩ : BufTy).Contents (Elt Ideal))

/-- The first layer's `dot_general` is the matrix product of the features by the first weight. -/
theorem proj1 : val_main_v30 (F := Ideal) x0 x2 = LayerSpec.project (x0 : S50000x128.Idx → EReal) (x2 : S128x64.Idx → EReal) := by
  funext i
  obtain ⟨p, q, rfl⟩ : ∃ (p : Fin 50000) (q : Fin 64), i = ix2 p q := ⟨i 0, i 1, eq_ix2 i⟩
  rw [val_main_v30_apply, LayerSpec.project_apply]
  refine Finset.sum_congr rfl fun k _ => ?_
  have hl : lidx_main_v30 (ix2 p q) k = ix2 p k := funext fun a => Fin.ext (by match a with | ⟨0, _⟩ => rfl | ⟨1, _⟩ => rfl)
  have hr : ridx_main_v30 (ix2 p q) k = ix2 k q := funext fun a => Fin.ext (by match a with | ⟨0, _⟩ => rfl | ⟨1, _⟩ => rfl)
  rw [hl, hr]

/-- The first layer's bias and rectifier: the bias, laid out as one row, added to every row of the aggregated array,
    then the maximum with zero. -/
theorem rect1 (h : S64.ShapeCasts S1x64) : val_main_v47 (F := Ideal) x0 x1 x2 x3
    = LayerSpec.biasRectify (val_main_v43 (F := Ideal) x0 x1 x2 : S50000x64.Idx → EReal) (shapeCast S1x64 x3 h) := by
  funext i
  obtain ⟨p, q, rfl⟩ : ∃ (p : Fin 50000) (q : Fin 64), i = ix2 p q := ⟨i 0, i 1, eq_ix2 i⟩
  rw [val_main_v47_apply, val_main_v46_apply, val_main_v45_apply, val_main_v44_apply, val_main_call1_v0_apply,
    val_main_call1_cst_apply, LayerSpec.biasRectify_apply, shapeCast_a_1a_apply]
  have hi : idx_main_v44 (idx_main_v45 (ix2 p q)) = ix1 q := funext fun a => Fin.ext (by match a with | ⟨0, _⟩ => rfl)
  rw [hi]
  rfl

/-- The second layer's `dot_general` is the matrix product of the first layer's output by the second weight. -/
theorem proj2 : val_main_v48 (F := Ideal) x0 x1 x2 x3 x4
    = LayerSpec.project (val_main_v47 (F := Ideal) x0 x1 x2 x3 : S50000x64.Idx → EReal) (x4 : S64x64.Idx → EReal) := by
  funext i
  obtain ⟨p, q, rfl⟩ : ∃ (p : Fin 50000) (q : Fin 64), i = ix2 p q := ⟨i 0, i 1, eq_ix2 i⟩
  rw [val_main_v48_apply, LayerSpec.project_apply]
  refine Finset.sum_congr rfl fun k _ => ?_
  have hl : lidx_main_v48 (ix2 p q) k = ix2 p k := funext fun a => Fin.ext (by match a with | ⟨0, _⟩ => rfl | ⟨1, _⟩ => rfl)
  have hr : ridx_main_v48 (ix2 p q) k = ix2 k q := funext fun a => Fin.ext (by match a with | ⟨0, _⟩ => rfl | ⟨1, _⟩ => rfl)
  rw [hl, hr]

/-- The second layer's bias and rectifier. -/
theorem rect2 (h : S64.ShapeCasts S1x64) : val_main_v65 (F := Ideal) x0 x1 x2 x3 x4 x5
    = LayerSpec.biasRectify (val_main_v61 (F := Ideal) x0 x1 x2 x3 x4 : S50000x64.Idx → EReal) (shapeCast S1x64 x5 h) := by
  funext i
  obtain ⟨p, q, rfl⟩ : ∃ (p : Fin 50000) (q : Fin 64), i = ix2 p q := ⟨i 0, i 1, eq_ix2 i⟩
  rw [val_main_v65_apply, val_main_v64_apply, val_main_v63_apply, val_main_v62_apply, val_main_call2_v0_apply,
    val_main_call2_cst_apply, LayerSpec.biasRectify_apply, shapeCast_a_1a_apply]
  have hi : idx_main_v62 (idx_main_v63 (ix2 p q)) = ix1 q := funext fun a => Fin.ext (by match a with | ⟨0, _⟩ => rfl)
  rw [hi]
  rfl

/-- The third layer's `dot_general` is the matrix product of the second layer's output by the third weight. -/
theorem proj3 : val_main_v66 (F := Ideal) x0 x1 x2 x3 x4 x5 x6
    = LayerSpec.project (val_main_v65 (F := Ideal) x0 x1 x2 x3 x4 x5 : S50000x64.Idx → EReal) (x6 : S64x40.Idx → EReal) := by
  funext i
  obtain ⟨p, q, rfl⟩ : ∃ (p : Fin 50000) (q : Fin 40), i = ix2 p q := ⟨i 0, i 1, eq_ix2 i⟩
  rw [val_main_v66_apply, LayerSpec.project_apply]
  refine Finset.sum_congr rfl fun k _ => ?_
  have hl : lidx_main_v66 (ix2 p q) k = ix2 p k := funext fun a => Fin.ext (by match a with | ⟨0, _⟩ => rfl | ⟨1, _⟩ => rfl)
  have hr : ridx_main_v66 (ix2 p q) k = ix2 k q := funext fun a => Fin.ext (by match a with | ⟨0, _⟩ => rfl | ⟨1, _⟩ => rfl)
  rw [hl, hr]

/-- The third layer's bias (no rectifier): the reference's result. -/
theorem bias3 (h : S40.ShapeCasts S1x40) : val_main_v82 (F := Ideal) x0 x1 x2 x3 x4 x5 x6 x7
    = LayerSpec.biasAdd (val_main_v79 (F := Ideal) x0 x1 x2 x3 x4 x5 x6 : S50000x40.Idx → EReal) (shapeCast S1x40 x7 h) := by
  funext i
  obtain ⟨p, q, rfl⟩ : ∃ (p : Fin 50000) (q : Fin 40), i = ix2 p q := ⟨i 0, i 1, eq_ix2 i⟩
  rw [val_main_v82_apply, val_main_v81_apply, val_main_v80_apply, LayerSpec.biasAdd_apply, shapeCast_a_1a_apply]
  have hi : idx_main_v80 (idx_main_v81 (ix2 p q)) = ix1 q := funext fun a => Fin.ext (by match a with | ⟨0, _⟩ => rfl)
  rw [hi]
  rfl

end Cert.ReferenceIdeal.Layers

end
-- ==== Proof.LibPairConcat.lean ====
/-
  A concatenation of two pieces as a function of the two pieces.

  `concatenate t a xs h` takes its pieces as a list of (shape, contents) pairs, and the type of its side condition `h`
  mentions that list; a rewriting pass therefore cannot change a piece's contents in place. `cat2` is the same
  concatenation for exactly two pieces, with the side condition stated over the two shapes only, so that each piece is an
  ordinary argument. `cat2_fold` turns the one into the other; `after_results_pairs` is the library's one-pass reading
  of a fold of host operations with that lemma added, for host programs whose two-operand concatenations feed later
  operations. No program imported.
-/
import Idealize.ShloMosaic.Lib.StableHlo.Run

namespace Cert.LibPairConcat

open Idealize.ShloMosaic

/-- Two pieces side by side along axis `a` of the result shape `t`. -/
def cat2 {α : Type} (t : Shape) (a : Fin t.rank) (s₁ s₂ : Shape) (h : Shape.Concatenates [s₁, s₂] t a)
    (u : s₁.Idx → α) (v : s₂.Idx → α) : t.Idx → α :=
  concatenate t a [⟨s₁, u⟩, ⟨s₂, v⟩] h

/-- A two-piece concatenation is `cat2` of its pieces. -/
theorem cat2_fold {α : Type} (t : Shape) (a : Fin t.rank) (s₁ s₂ : Shape) (h : Shape.Concatenates [s₁, s₂] t a)
    (u : s₁.Idx → α) (v : s₂.Idx → α) :
    concatenate t a [⟨s₁, u⟩, ⟨s₂, v⟩] h = cat2 t a s₁ s₂ h u v := rfl

end Cert.LibPairConcat

open Idealize.ShloMosaic.StableHlo in
/-- The fold of a literal list of host operations read at a result buffer, in one rewriting pass, two-piece
    concatenations folded so that the pass reaches their pieces. -/
macro "after_results_pairs" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibPairConcat.cat2_fold]))
-- ==== Proof.KernelStages.lean ====
/-
  What the kernel's result array holds, as a function of the arguments: the reference's own stages.

  The kernel's program computes the edge lists with self-loops, the symmetric normalisation and, per layer, the
  gather / scale / scatter-add over the edges by the SAME host operations as the reference; only the dense pieces differ
  in form — a layer's projection `h @ W` is a kernel region (row blocks of 10000 nodes, operands converted to a narrower
  float format, which is the identity at the ideal values) where the reference has one `dot_general`, and its bias step
  (with the rectifier, on the first two layers) is a second region where the reference broadcasts, adds and takes a
  maximum. Walking the boundary contents `W0 … W12` of the kernel's run from the launch to the return, each buffer the
  next step reads is identified with the reference's stage of the same name (`val_main_v…` of the imported stage module):
  the host stretches by the two programs' operations being the same terms, the regions by the `Region…` modules'
  whole-array equations and the layer functions of `LayerSpec`, which the reference's dense stages are as well
  (`RefLayers`). At the end the kernel's result array is the reference's last stage of the launch arguments.
-/
import proofs.«161392_j49855980372167_1_alg».proof.Proof.Gen.KernelIdeal.Frame
import proofs.«161392_j49855980372167_1_alg».proof.Proof.KernelKept
import proofs.«161392_j49855980372167_1_alg».proof.Proof.Region0
import proofs.«161392_j49855980372167_1_alg».proof.Proof.Region1
import proofs.«161392_j49855980372167_1_alg».proof.Proof.Region2
import proofs.«161392_j49855980372167_1_alg».proof.Proof.Region3
import proofs.«161392_j49855980372167_1_alg».proof.Proof.Region4
import proofs.«161392_j49855980372167_1_alg».proof.Proof.Region5
import proofs.«161392_j49855980372167_1_alg».proof.Proof.RefLayers
import proofs.«161392_j49855980372167_1_alg».proof.Proof.LayerSpec
import proofs.«161392_j49855980372167_1_alg».proof.Proof.LibPairConcat
import Idealize.ShloMosaic.Lib.StableHlo.Run

set_option maxRecDepth 16384

noncomputable section

namespace Cert.KernelIdeal.Layers.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region: the edge lists and the edge weights

The host operations before the first region come in three stretches: @main's first eighteen operations (the edge lists
with self-loops, the degree by a scatter-add of ones, its comparison with zero and its inverse square root), the three
operations of the outlined `where` (the inverse square-root degree where the degree is positive, zero elsewhere), and
nineteen more (the index normalisations, the two gathers of the endpoints' factors and their product). Each stretch
is read on its own, from the values the stretch before left. -/

/-- The source list with self-loops after the first stretch is the reference's. -/
theorem src1_eq : W1 m ρ c (Proc.devRef .tc main_v3) = Cert.ReferenceIdeal.ReadP.val_main_v3 (F := Ideal) (m ((c.tc : Thread nD τ).loc main_arg1)) := by
  show StableHlo.after hostOps0 (W0 m ρ c) (Proc.devRef .tc main_v3) = _
  after_results_pairs
  rfl

/-- The destination list with self-loops after the first stretch is the reference's. -/
theorem dst1_eq : W1 m ρ c (Proc.devRef .tc main_v6) = Cert.ReferenceIdeal.ReadP.val_main_v6 (F := Ideal) (m ((c.tc : Thread nD τ).loc main_arg1)) := by
  show StableHlo.after hostOps0 (W0 m ρ c) (Proc.devRef .tc main_v6) = _
  after_results_pairs
  rfl

/-- "The degree is positive", node by node, is the reference's. -/
theorem degpos1_eq : W1 m ρ c (Proc.devRef .tc main_v12) = Cert.ReferenceIdeal.ReadP.val_main_v12 (F := Ideal) (m ((c.tc : Thread nD τ).loc main_arg1)) := by
  show StableHlo.after hostOps0 (W0 m ρ c) (Proc.devRef .tc main_v12) = _
  after_results_pairs
  rfl

/-- The inverse square root of the degree, node by node, is the reference's. -/
theorem rsqrtdeg1_eq : W1 m ρ c (Proc.devRef .tc main_v13) = Cert.ReferenceIdeal.ReadP.val_main_v13 (F := Ideal) (m ((c.tc : Thread nD τ).loc main_arg1)) := by
  show StableHlo.after hostOps0 (W0 m ρ c) (Proc.devRef .tc main_v13) = _
  after_results_pairs
  rfl

/-- The zero that `where` falls back to is the reference's. -/
theorem zero1_eq : W1 m ρ c (Proc.devRef .tc main_cst_2) = Cert.ReferenceIdeal.ReadP.val_main_cst_2 (F := Ideal) := by
  show StableHlo.after hostOps0 (W0 m ρ c) (Proc.devRef .tc main_cst_2) = _
  after_results_pairs
  rfl

/-- The outlined `where` reads and writes its buffers through transports along "the buffer's type is the value's
    type"; each transport is along a true-by-computation equation, so the whole is the plain selection. -/
theorem where_transports (a : (⟨S50000, .i1⟩ : BufTy).Contents (Elt Ideal)) (b : (⟨S50000, .f32⟩ : BufTy).Contents (Elt Ideal))
    (z : (⟨S_, .f32⟩ : BufTy).Contents (Elt Ideal)) :
    (TRef.of (sig := sig) (T := ⟨S50000, .f32⟩) main_v14).toBuf (Val := Elt Ideal)
      (select ((TRef.of (sig := sig) (T := ⟨S50000, .i1⟩) main_v12).ofBuf (Val := Elt Ideal) a)
        ((TRef.of (sig := sig) (T := ⟨S50000, .f32⟩) main_v13).ofBuf (Val := Elt Ideal) b)
        ((TRef.of (sig := sig) (T := ⟨S50000, .f32⟩) main_call0_v1).ofBuf (Val := Elt Ideal)
          ((TRef.of (sig := sig) (T := ⟨S50000, .f32⟩) main_call0_v1).toBuf (Val := Elt Ideal)
            (broadcastInDim S50000 ![] Gen.bcast_S_S50000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_2).ofBuf (Val := Elt Ideal) z))))))))
      = select a b (broadcastInDim S50000 ![] Gen.bcast_S_S50000 (id z)) := rfl

/-- The second stretch from any contents holding the reference's three operands: the inverse square-root degree with
    zero where the degree is zero is the reference's. -/
theorem dinv_of (U : Valuation τ sig (Elt Ideal)) (x1 : (⟨Cert.ReferenceIdeal.S2x800000, .i32⟩ : BufTy).Contents (Elt Ideal))
    (h12 : U (Proc.devRef .tc main_v12) = Cert.ReferenceIdeal.ReadP.val_main_v12 (F := Ideal) x1)
    (h13 : U (Proc.devRef .tc main_v13) = Cert.ReferenceIdeal.ReadP.val_main_v13 (F := Ideal) x1)
    (hc : U (Proc.devRef .tc main_cst_2) = Cert.ReferenceIdeal.ReadP.val_main_cst_2 (F := Ideal)) :
    StableHlo.after hostOps0_1 U (Proc.devRef .tc main_v14) = Cert.ReferenceIdeal.ReadP.val_main_v14 (F := Ideal) x1 := by
  after_results_simp
  rw [h12, h13, hc]
  refine (where_transports _ _ _).trans ?_
  rfl

/-- The third stretch from any contents holding the reference's factors and edge lists: the edge weights are the
    reference's. -/
theorem norm_of (U : Valuation τ sig (Elt Ideal)) (x1 : (⟨Cert.ReferenceIdeal.S2x800000, .i32⟩ : BufTy).Contents (Elt Ideal))
    (h14 : U (Proc.devRef .tc main_v14) = Cert.ReferenceIdeal.ReadP.val_main_v14 (F := Ideal) x1)
    (h3 : U (Proc.devRef .tc main_v3) = Cert.ReferenceIdeal.ReadP.val_main_v3 (F := Ideal) x1)
    (h6 : U (Proc.devRef .tc main_v6) = Cert.ReferenceIdeal.ReadP.val_main_v6 (F := Ideal) x1) :
    StableHlo.after hostOps0_2 U (Proc.devRef .tc main_v29) = Cert.ReferenceIdeal.ReadP.val_main_v29 (F := Ideal) x1 := by
  after_results_simp
  rw [h14, h3, h6]
  rfl

/-- The source list at the first region's entry: the last two stretches do not write it. -/
theorem src_eq : W3 m ρ c (Proc.devRef .tc main_v3) = Cert.ReferenceIdeal.ReadP.val_main_v3 (F := Ideal) (m ((c.tc : Thread nD τ).loc main_arg1)) :=
  calc W3 m ρ c (Proc.devRef .tc main_v3)
    _ = W2 m ρ c (Proc.devRef .tc main_v3) := by
          show StableHlo.after hostOps0_2 (W2 m ρ c) (Proc.devRef .tc main_v3) = _
          after_results_simp
    _ = W1 m ρ c (Proc.devRef .tc main_v3) := by
          show StableHlo.after hostOps0_1 (W1 m ρ c) (Proc.devRef .tc main_v3) = _
          after_results_simp
    _ = _ := src1_eq m ρ c

/-- The destination list at the first region's entry. -/
theorem dst_eq : W3 m ρ c (Proc.devRef .tc main_v6) = Cert.ReferenceIdeal.ReadP.val_main_v6 (F := Ideal) (m ((c.tc : Thread nD τ).loc main_arg1)) :=
  calc W3 m ρ c (Proc.devRef .tc main_v6)
    _ = W2 m ρ c (Proc.devRef .tc main_v6) := by
          show StableHlo.after hostOps0_2 (W2 m ρ c) (Proc.devRef .tc main_v6) = _
          after_results_simp
    _ = W1 m ρ c (Proc.devRef .tc main_v6) := by
          show StableHlo.after hostOps0_1 (W1 m ρ c) (Proc.devRef .tc main_v6) = _
          after_results_simp
    _ = _ := dst1_eq m ρ c

/-- The edge weights (the product of the two endpoints' inverse square-root degrees) are the reference's. -/
theorem norm_eq : W3 m ρ c (Proc.devRef .tc main_v29) = Cert.ReferenceIdeal.ReadP.val_main_v29 (F := Ideal) (m ((c.tc : Thread nD τ).loc main_arg1)) :=
  norm_of (W2 m ρ c) _
    (dinv_of (W1 m ρ c) _ (degpos1_eq m ρ c) (rsqrtdeg1_eq m ρ c) (zero1_eq m ρ c))
    ((show W2 m ρ c (Proc.devRef .tc main_v3) = W1 m ρ c (Proc.devRef .tc main_v3) from by
        show StableHlo.after hostOps0_1 (W1 m ρ c) (Proc.devRef .tc main_v3) = _
        after_results_simp).trans (src1_eq m ρ c))
    ((show W2 m ρ c (Proc.devRef .tc main_v6) = W1 m ρ c (Proc.devRef .tc main_v6) from by
        show StableHlo.after hostOps0_1 (W1 m ρ c) (Proc.devRef .tc main_v6) = _
        after_results_simp).trans (dst1_eq m ρ c))

/-! ## The first layer -/

/-- REGION 0 leaves the reference's first `dot_general`. -/
theorem proj1_eq : W4 m ρ c (Proc.devRef .tc main_v30) = Cert.ReferenceIdeal.ReadP.val_main_v30 (F := Ideal) (m ((c.tc : Thread nD τ).loc main_arg0)) (m ((c.tc : Thread nD τ).loc main_arg2)) :=
  (W4_arr m ρ c 2).trans ((Region0.final (V3 m ρ) c).trans
    ((congrArg₂ (LayerSpec.project (m := 50000) (k := 128) (n := 64)) (Kept.features_entry0 m ρ c) (Kept.weight1_entry0 m ρ c)).trans
      (Cert.ReferenceIdeal.Layers.proj1 _ _).symm))

/-- The gather along the source list, the scaling by the edge weights and the scatter-add along the destination list
    are the two programs' same operations: the aggregated array is the reference's. -/
theorem agg1_eq : W5 m ρ c (Proc.devRef .tc main_v43) = Cert.ReferenceIdeal.ReadP.val_main_v43 (F := Ideal) (m ((c.tc : Thread nD τ).loc main_arg0)) (m ((c.tc : Thread nD τ).loc main_arg1)) (m ((c.tc : Thread nD τ).loc main_arg2)) := by
  show StableHlo.after hostOps1 (W4 m ρ c) (Proc.devRef .tc main_v43) = _
  after_results_simp
  rw [Kept.src_exit0 m ρ c, Kept.dst_exit0 m ρ c, Kept.norm_exit0 m ρ c, src_eq m ρ c, dst_eq m ρ c, norm_eq m ρ c, proj1_eq m ρ c]
  rfl

/-- The first bias laid out as one row. -/
theorem biasrow1_eq : W5 m ρ c (Proc.devRef .tc main_v44) = shapeCast S1x64 (m ((c.tc : Thread nD τ).loc main_arg3)) Gen.shapeCasts_S64_S1x64 := by
  show StableHlo.after hostOps1 (W4 m ρ c) (Proc.devRef .tc main_v44) = _
  after_results_simp
  rw [Kept.bias1_exit0 m ρ c]
  rfl

/-- REGION 1 leaves the reference's first rectified layer output. -/
theorem rect1_eq : W6 m ρ c (Proc.devRef .tc main_v45) = Cert.ReferenceIdeal.ReadP.val_main_v47 (F := Ideal) (m ((c.tc : Thread nD τ).loc main_arg0)) (m ((c.tc : Thread nD τ).loc main_arg1)) (m ((c.tc : Thread nD τ).loc main_arg2)) (m ((c.tc : Thread nD τ).loc main_arg3)) :=
  (W6_arr m ρ c 2).trans ((Region1.final (V5 m ρ) c).trans
    ((congrArg₂ (LayerSpec.biasRectify (m := 50000) (n := 64)) (agg1_eq m ρ c) (biasrow1_eq m ρ c)).trans
      (Cert.ReferenceIdeal.Layers.rect1 _ _ _ _ _).symm))

/-! ## The second layer -/

/-- REGION 2 leaves the reference's second `dot_general`. -/
theorem proj2_eq : W7 m ρ c (Proc.devRef .tc main_v46) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W7_arr m ρ c 2).trans ((Region2.final (V6 m ρ) c).trans
    ((congrArg₂ (LayerSpec.project (m := 50000) (k := 64) (n := 64)) (rect1_eq m ρ c) (Kept.weight2_entry2 m ρ c)).trans
      (Cert.ReferenceIdeal.Layers.proj2 _ _ _ _ _).symm))

theorem agg2_eq : W8 m ρ c (Proc.devRef .tc main_v59) = Cert.ReferenceIdeal.ReadP.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W7 m ρ c) (Proc.devRef .tc main_v59) = _
  after_results_simp
  rw [Kept.src_exit2 m ρ c, Kept.dst_exit2 m ρ c, Kept.norm_exit2 m ρ c, src_eq m ρ c, dst_eq m ρ c, norm_eq m ρ c, proj2_eq m ρ c]
  rfl

theorem biasrow2_eq : W8 m ρ c (Proc.devRef .tc main_v60) = shapeCast S1x64 (m ((c.tc : Thread nD τ).loc main_arg5)) Gen.shapeCasts_S64_S1x64 := by
  show StableHlo.after hostOps3 (W7 m ρ c) (Proc.devRef .tc main_v60) = _
  after_results_simp
  rw [Kept.bias2_exit2 m ρ c]
  rfl

/-- REGION 3 leaves the reference's second rectified layer output. -/
theorem rect2_eq : W9 m ρ c (Proc.devRef .tc main_v61) = Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W9_arr m ρ c 2).trans ((Region3.final (V8 m ρ) c).trans
    ((congrArg₂ (LayerSpec.biasRectify (m := 50000) (n := 64)) (agg2_eq m ρ c) (biasrow2_eq m ρ c)).trans
      (Cert.ReferenceIdeal.Layers.rect2 _ _ _ _ _ _ _).symm))

/-! ## The third layer -/

/-- REGION 4 leaves the reference's third `dot_general`. -/
theorem proj3_eq : W10 m ρ c (Proc.devRef .tc main_v62) = Cert.ReferenceIdeal.ReadP.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W10_arr m ρ c 2).trans ((Region4.final (V9 m ρ) c).trans
    ((congrArg₂ (LayerSpec.project (m := 50000) (k := 64) (n := 40)) (rect2_eq m ρ c) (Kept.weight3_entry4 m ρ c)).trans
      (Cert.ReferenceIdeal.Layers.proj3 _ _ _ _ _ _ _).symm))

theorem agg3_eq : W11 m ρ c (Proc.devRef .tc main_v75) = Cert.ReferenceIdeal.ReadP.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps5 (W10 m ρ c) (Proc.devRef .tc main_v75) = _
  after_results_simp
  rw [Kept.src_exit4 m ρ c, Kept.dst_exit4 m ρ c, Kept.norm_exit4 m ρ c, src_eq m ρ c, dst_eq m ρ c, norm_eq m ρ c, proj3_eq m ρ c]
  rfl

theorem biasrow3_eq : W11 m ρ c (Proc.devRef .tc main_v76) = shapeCast S1x40 (m ((c.tc : Thread nD τ).loc main_arg7)) Gen.shapeCasts_S40_S1x40 := by
  show StableHlo.after hostOps5 (W10 m ρ c) (Proc.devRef .tc main_v76) = _
  after_results_simp
  rw [Kept.bias3_exit4 m ρ c]
  rfl

/-- REGION 5 leaves the reference's result: the kernel's result array, after the run, is the reference's last stage
    of the launch arguments. -/
theorem result_eq : W12 m ρ c (Proc.devRef .tc main_v77)
    = Cert.ReferenceIdeal.ReadP.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W12_arr m ρ c 2).trans ((Region5.final (V11 m ρ) c).trans
    ((congrArg₂ (LayerSpec.biasAdd (m := 50000) (n := 40)) (agg3_eq m ρ c) (biasrow3_eq m ρ c)).trans
      (Cert.ReferenceIdeal.Layers.bias3 _ _ _ _ _ _ _ _ _).symm))

end Cert.KernelIdeal.Layers.Stages

end
-- ==== Proof.lean ====
/-
  Three graph-convolution layers on 50000 nodes and 800000 edges (feature widths 128 → 64 → 64 → 40): the kernel's
  program against its jnp reference, over the extended reals.

  Both programs build the edge lists with self-loops, the degree by a scatter-add of ones, the symmetric normalisation
  `dinv[src] * dinv[dst]`, and per layer gather the projected rows along the source list, scale them by the edge
  weights and scatter-add them along the destination list — by the same host operations. They differ only in the dense
  pieces: the kernel's program computes each projection `h @ W` in a kernel region (five row blocks of 10000 nodes, the
  operands converted to a narrower float format first) and each bias step (with the rectifier on the first two
  layers) in a second region, where the reference has one `dot_general`, a broadcast, an add and a maximum. At the
  ideal values a change of float format is the identity, a block product into a zero accumulator is the exact sum of
  products, and the row blocks tile the node axis, so every region leaves exactly the reference's stage; the finiteness
  of the inputs is never used.

  * the frames of the two kernel programs are the imported frame modules'; the reference's frame is its run with the
    result dropped;
  * `preserves`: the idealization rewrote nothing;
  * `algebraic`: the kernel's run names its result array (`Layers.run_main`), that array is the reference's last
    stage of the launch arguments (`Layers.Stages.result_eq`), and the reference's run ends at the same stage of
    arguments that agree.
-/
import proofs.«161392_j49855980372167_1_alg».proof.Defs
import proofs.«161392_j49855980372167_1_alg».proof.Proof.Gen.Kernel
import proofs.«161392_j49855980372167_1_alg».proof.Proof.Gen.Kernel.Frame
import proofs.«161392_j49855980372167_1_alg».proof.Proof.Gen.KernelIdeal
import proofs.«161392_j49855980372167_1_alg».proof.Proof.Gen.KernelIdeal.Frame
import proofs.«161392_j49855980372167_1_alg».proof.Proof.Gen.ReferenceIdeal
import proofs.«161392_j49855980372167_1_alg».proof.Proof.Gen.Pre_finite_inputs
import proofs.«161392_j49855980372167_1_alg».proof.Proof.RefRunPatched
import proofs.«161392_j49855980372167_1_alg».proof.Proof.RefReadPatched
import proofs.«161392_j49855980372167_1_alg».proof.Proof.KernelRun
import proofs.«161392_j49855980372167_1_alg».proof.Proof.KernelStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the reference's last stage of those arguments in
    their result arrays. -/
theorem algebraic : Cert.algebraic_KernelIdeal_ReferenceIdeal := by
  intro m ρ m' ρ' _ hagree
  refine ⟨fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Layers.Stages.result_eq m ρ c), (h c).2⟩)
      (Cert.KernelIdeal.Layers.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v82_eq]
    obtain ⟨h0, h1, h2, h3, h4, h5, h6, h7⟩ := hagree c
    rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
